-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg5 : FVec F S256 .f32) (main_arg6 : FVec F S256 .f32) (main_arg7 : FVec F S256x256 .f32) (main_arg8 : FVec F S256 .f32) (main_arg9 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256 .f32) (main_arg6 : FVec F S256 .f32) (main_arg7 : FVec F S256x256 .f32) (main_arg8 : FVec F S256 .f32) (main_arg9 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S800000x256 : Shape := ⟨2, ![800000, 256]⟩

abbrev nBuf : Space → Nat
  | .hbm => 77
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x256, .f32⟩
  | .hbm, ⟨40, _⟩ => ⟨S50000x256, .f32⟩
  | .hbm, ⟨41, _⟩ => ⟨S_, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S50000x256, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x256, .f32⟩
  | .hbm, ⟨69, _⟩ => ⟨S_, .f32⟩
  | .hbm, ⟨70, _⟩ => ⟨S50000x256, .f32⟩
  | .hbm, ⟨71, _⟩ => ⟨S800000x1, .i32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S128x256, .f32⟩
  | 5 => ⟨S256, .f32⟩
  | 6 => ⟨S256, .f32⟩
  | 7 => ⟨S256x256, .f32⟩
  | 8 => ⟨S256, .f32⟩
  | 9 => ⟨S256x256, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S50000x256, .f32⟩
  | 40 => ⟨S1x256, .f32⟩
  | 41 => ⟨S50000x256, .f32⟩
  | 42 => ⟨S50000x256, .f32⟩
  | 43 => ⟨S50000x256, .f32⟩
  | 44 => ⟨S50000x256, .f32⟩
  | 45 => ⟨S50000x256, .f32⟩
  | 46 => ⟨S_, .f32⟩
  | 47 => ⟨S50000, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S_, .f32⟩
  | 59 => ⟨S256, .f32⟩
  | 60 => ⟨S_, .f32⟩
  | 61 => ⟨S256, .f32⟩
  | 62 => ⟨S256, .f32⟩
  | 63 => ⟨S1x256, .f32⟩
  | 64 => ⟨S50000x256, .f32⟩
  | 65 => ⟨S50000x256, .f32⟩
  | 66 => ⟨S50000x256, .f32⟩
  | 67 => ⟨S_, .f32⟩
  | 68 => ⟨S256, .f32⟩
  | 69 => ⟨S_, .f32⟩
  | 70 => ⟨S256, .f32⟩
  | 71 => ⟨S256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S50000x256, .f32⟩
  | 118 => ⟨S50000x256, .f32⟩
  | 119 => ⟨S50000x256, .f32⟩
  | 120 => ⟨S_, .f32⟩
  | 121 => ⟨S50000, .f32⟩
  | 122 => ⟨S50000x1, .f32⟩
  | 123 => ⟨S50000x1, .f32⟩
  | 124 => ⟨S_, .f32⟩
  | 125 => ⟨S50000x1, .f32⟩
  | 126 => ⟨S50000x1, .f32⟩
  | 127 => ⟨S50000x256, .f32⟩
  | _ => ⟨S50000x128, .f32⟩

abbrev hbmTy0_1 (i : Nat) : BufTy := match i % 128 with
  | 0 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_v0 : Ref sig .tc := ⟨.hbm, 119, rfl⟩
abbrev main_call2_cst : Ref sig .tc := ⟨.hbm, 120, rfl⟩
abbrev main_call2_v1 : Ref sig .tc := ⟨.hbm, 121, rfl⟩
abbrev main_call2_v2 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  bcast_S_S256 : S_.BroadcastsInDim S256 (![] : Fin 0 → Fin S256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its result named.  The program is three pipelined regions among stretches of host
  operations; the buffer contents at each boundary are a fold from the launch memory (`Gen.W1` … `Gen.W6`).  Every
  weakly fair execution terminates with the result buffer holding the last fold's value at that buffer and with the
  argument arrays as launched: the launch over the six segments, the last thread state read against the final state.
-/
import proofs.«179194_j5385888989904_1_alg».proof.Proof.PatchedKernelIdealFrame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the
    last boundary's contents and the argument arrays end as launched. -/
theorem run_result : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Gen

end
-- ==== Proof.Spec.lean ====
/-
  The mathematics both programs compute, index by index, on the extended reals.

  A layer of the network combines, for node `i` and output channel `j`, the mean of the neighbours' features
  `A` and the node's own features `X`:  pre(i,j) = Σ_k A(i,k)·Wl(k,j) + Σ_k X(i,k)·Wr(k,j) + b(j);
  the row is then divided by its Euclidean length, floored at the word 1e-12:
  conv(i,j) = pre(i,j) / max(√(Σ_j' pre(i,j')²), ε).  The first layer is followed by max(·, 0).
  Batch normalisation with given per-channel mean and variance is
  bn(i,j) = ((H(i,j) − μ(j)) · rsqrt(σ²(j) + ε')) · γ(j) + β(j).
-/
import Idealize.ShloMosaic.PureOps.Ideal
import Idealize.ShloMosaic.Lib.ValueIdx

noncomputable section

namespace Cert.Spec

open Idealize.ShloMosaic Idealize.ShloMosaic.ValueIdx

/-- A matrix of extended reals with literal extents. -/
abbrev Mat (a b : Nat) : Type := FVec Ideal (⟨2, ![a, b]⟩ : Shape) .f32
/-- A vector of extended reals with a literal extent. -/
abbrev Row (b : Nat) : Type := FVec Ideal (⟨1, ![b]⟩ : Shape) .f32

/-- The floor of a row's length: the f32 word nearest 1e-12. -/
def normEps : EReal := Ideal.ofBits .f32 0x2B8CBCCC#32
/-- The variance offset: the f32 word nearest 1e-5. -/
def bnEps : EReal := Ideal.ofBits .f32 0x3727C5AC#32

/-- A one-row matrix read as a vector. -/
def unrow {n : Nat} (r : Mat 1 n) : Row n := fun y => r (ix2 (0 : Fin 1) (y 0))

/-- The layer before normalisation, at node `i` and channel `j`. -/
def pre {K : Nat} (A X : Mat 50000 K) (Wl Wr : Mat K 256) (b : Row 256) (i : Fin 50000) (j : Fin 256) : EReal :=
  (∑ k : Fin K, A (ix2 i k) * Wl (ix2 k j) + ∑ k : Fin K, X (ix2 i k) * Wr (ix2 k j)) + b (ix1 j)

/-- The length of node `i`'s row, floored at `normEps`. -/
def rowNorm {K : Nat} (A X : Mat 50000 K) (Wl Wr : Mat K 256) (b : Row 256) (i : Fin 50000) : EReal :=
  max (Ideal.sqrt (∑ j : Fin 256, pre A X Wl Wr b i j * pre A X Wl Wr b i j)) normEps

/-- The normalised layer at `(i, j)`. -/
def convAt {K : Nat} (A X : Mat 50000 K) (Wl Wr : Mat K 256) (b : Row 256) (i : Fin 50000) (j : Fin 256) : EReal :=
  Ideal.div (pre A X Wl Wr b i j) (rowNorm A X Wl Wr b i)

/-- The normalised layer as an array. -/
def conv {K : Nat} (A X : Mat 50000 K) (Wl Wr : Mat K 256) (b : Row 256) : Mat 50000 256 :=
  fun y => convAt A X Wl Wr b (y 0) (y 1)

/-- The normalised layer followed by `max(·, 0)`. -/
def convRelu {K : Nat} (A X : Mat 50000 K) (Wl Wr : Mat K 256) (b : Row 256) : Mat 50000 256 :=
  fun y => max (convAt A X Wl Wr b (y 0) (y 1)) 0

/-- Batch normalisation at `(i, j)` with given per-channel statistics. -/
def bnAt (H : Mat 50000 256) (mu var g be : Row 256) (i : Fin 50000) (j : Fin 256) : EReal :=
  ((H (ix2 i j) - mu (ix1 j)) * Ideal.rsqrt (var (ix1 j) + bnEps)) * g (ix1 j) + be (ix1 j)

/-- Batch normalisation as an array. -/
def bn (H : Mat 50000 256) (mu var g be : Row 256) : Mat 50000 256 :=
  fun y => bnAt H mu var g be (y 0) (y 1)

theorem conv_apply {K : Nat} (A X : Mat 50000 K) (Wl Wr : Mat K 256) (b : Row 256) (i : Fin 50000) (j : Fin 256) :
    conv A X Wl Wr b (ix2 i j) = convAt A X Wl Wr b i j := rfl

theorem convRelu_apply {K : Nat} (A X : Mat 50000 K) (Wl Wr : Mat K 256) (b : Row 256) (i : Fin 50000) (j : Fin 256) :
    convRelu A X Wl Wr b (ix2 i j) = max (convAt A X Wl Wr b i j) 0 := rfl

theorem bn_apply (H : Mat 50000 256) (mu var g be : Row 256) (i : Fin 50000) (j : Fin 256) :
    bn H mu var g be (ix2 i j) = bnAt H mu var g be i j := rfl

theorem unrow_apply {n : Nat} (r : Mat 1 n) (j : Fin n) : unrow r (ix1 j) = r (ix2 (0 : Fin 1) j) := rfl

end Cert.Spec

end
-- ==== Proof.Glue.lean ====
import proofs.«179194_j5385888989904_1_alg».proof.Proof.PatchedKernelIdealFrame
import proofs.«179194_j5385888989904_1_alg».proof.Proof.Gen.ReferenceIdeal.Read
import proofs.«179194_j5385888989904_1_alg».proof.Proof.Spec
import Idealize.ShloMosaic.Lib.StableHlo.Run

set_option maxRecDepth 16384

noncomputable section

/-!
  The kernel program's result array is the reference's last stage of the same arguments.

  The buffer contents at each boundary of the kernel program are a fold from the launch memory.  Read at the buffers
  that matter: a stretch of host operations leaves at its result buffer the operations' composed function of what it
  found — and the gathers, segment sums, divisions and batch statistics there are the reference's own operations of
  the same inputs —; a region leaves at its output array the layer (or the normalisation) of the arrays it found.
  So, boundary by boundary, the arrays the kernel program holds are the reference's stages of the arguments.
-/

namespace Cert.KernelIdeal.Glue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A vector given a leading unit axis and read back as a vector is itself. -/
theorem unrow_shapeCast {n : Nat} (v : Cert.Spec.Row n) (h : (⟨1, ![n]⟩ : Shape).ShapeCasts ⟨2, ![1, n]⟩) :
    Cert.Spec.unrow (shapeCast (⟨2, ![1, n]⟩ : Shape) v h) = v := by
  funext y
  unfold Cert.Spec.unrow
  refine (shapeCast_addUnit_apply ![n] v h _).trans (congrArg v ?_)
  funext a
  match a with
  | ⟨0, _⟩ => rfl

/-! ## What is assumed of the three regions and of the reference's three stages

  Each region's output array is one function of the arrays the region finds (whatever they are), and each of the
  reference's three stages is the same function of the stage before it. -/

/-- The first region leaves the first layer, followed by the maximum with zero. -/
abbrev Region0Is : Prop := ∀ (V : (c : Dev nD) → (b : Ref sig .tc) → Buf (Elt Ideal) ((c : Thread nD τ).loc b)) (c : Dev nD),
    (dat0 (F := Ideal) V c).arrAt 5 cfg0.N
      = Cert.Spec.convRelu (V c main_v22) (V c main_arg0) (V c main_arg2) (V c main_arg4) (Cert.Spec.unrow (V c main_v23))
/-- The second region leaves the batch normalisation. -/
abbrev Region1Is : Prop := ∀ (V : (c : Dev nD) → (b : Ref sig .tc) → Buf (Elt Ideal) ((c : Thread nD τ).loc b)) (c : Dev nD),
    (dat1 (F := Ideal) V c).arrAt 5 cfg1.N
      = Cert.Spec.bn (V c main_v24) (Cert.Spec.unrow (V c main_v35)) (Cert.Spec.unrow (V c main_v36)) (Cert.Spec.unrow (V c main_v37)) (Cert.Spec.unrow (V c main_v38))
/-- The third region leaves the second layer. -/
abbrev Region2Is : Prop := ∀ (V : (c : Dev nD) → (b : Ref sig .tc) → Buf (Elt Ideal) ((c : Thread nD τ).loc b)) (c : Dev nD),
    (dat2 (F := Ideal) V c).arrAt 5 cfg2.N
      = Cert.Spec.conv (V c main_v51) (V c main_v39) (V c main_arg7) (V c main_arg9) (Cert.Spec.unrow (V c main_v52))
/-- The reference's first layer. -/
abbrev Stage34Is : Prop := ∀ y0 y1 y2 y3 y4, Cert.ReferenceIdeal.Read.val_main_v34 (F := Ideal) y0 y1 y2 y3 y4
      = Cert.Spec.convRelu (Cert.ReferenceIdeal.Read.val_main_v22 (F := Ideal) y0 y1) y0 y2 y4 y3
/-- The reference's batch normalisation. -/
abbrev Stage59Is : Prop := ∀ y0 y1 y2 y3 y4 y5 y6, Cert.ReferenceIdeal.Read.val_main_v59 (F := Ideal) y0 y1 y2 y3 y4 y5 y6
      = Cert.Spec.bn (Cert.ReferenceIdeal.Read.val_main_v34 (F := Ideal) y0 y1 y2 y3 y4) (Cert.ReferenceIdeal.Read.val_main_v37 (F := Ideal) y0 y1 y2 y3 y4)
          (Cert.ReferenceIdeal.Read.val_main_v44 (F := Ideal) y0 y1 y2 y3 y4) y5 y6
/-- The reference's second layer. -/
abbrev Stage89Is : Prop := ∀ y0 y1 y2 y3 y4 y5 y6 y7 y8 y9, Cert.ReferenceIdeal.Read.val_main_v89 (F := Ideal) y0 y1 y2 y3 y4 y5 y6 y7 y8 y9
      = Cert.Spec.conv (Cert.ReferenceIdeal.Read.val_main_v78 (F := Ideal) y0 y1 y2 y3 y4 y5 y6) (Cert.ReferenceIdeal.Read.val_main_v59 (F := Ideal) y0 y1 y2 y3 y4 y5 y6) y7 y9 y8

/-! ## Before the first region: the host operations on the arguments -/

/-- The neighbour means of the input features: the reference's own operations of the same arguments. -/
theorem w1_v22 : W1 m ρ c (Proc.devRef .tc main_v22) = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  dsimp only [hostOps0]
  after_results_simp <;> rfl

/-- The sources, the destinations and the floored in-degrees, as the reference computes them. -/
theorem w1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results_simp <;> rfl
theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results_simp <;> rfl
theorem w1_v10 : W1 m ρ c (Proc.devRef .tc main_v10) = Cert.ReferenceIdeal.Read.val_main_v76 (F := Ideal) (m ((c : Thread nD τ).loc main_arg1)) := by
  show StableHlo.after hostOps0 (W0 m ρ c) (Proc.devRef .tc main_v10) = _
  dsimp only [hostOps0]
  after_results_simp <;> rfl

/-- The first bias as a one-row matrix. -/
theorem w1_v23 : Cert.Spec.unrow (W1 m ρ c (Proc.devRef .tc main_v23)) = (m ((c : Thread nD τ).loc main_arg3)) := by
  have e : W1 m ρ c (Proc.devRef .tc main_v23) = shapeCast S1x256 (m ((c : Thread nD τ).loc main_arg3)) shapeCasts_S256_S1x256 := by
    show StableHlo.after hostOps0 (W0 m ρ c) (Proc.devRef .tc main_v23) = _
    dsimp only [hostOps0]
    after_results_simp <;> rfl
  rw [e]; exact unrow_shapeCast _ _
theorem w1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl
theorem w1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl
theorem w1_arg4 : W1 m ρ c (Proc.devRef .tc main_arg4) = (m ((c : Thread nD τ).loc main_arg4)) := by
  show StableHlo.after hostOps0 (W0 m ρ c) (Proc.devRef .tc main_arg4) = _
  dsimp only [hostOps0]
  after_results_simp <;> rfl
theorem w1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp <;> rfl
theorem w1_arg6 : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl
theorem w1_arg7 : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl
theorem w1_arg8 : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl
theorem w1_arg9 : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl

/-! ## After the first region -/

/-- The first region's output is the reference's first layer. -/
theorem w2_v24 (hK0 : Region0Is) (hR34 : Stage34Is) :
    W2 m ρ c (Proc.devRef .tc main_v24) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [hK0 (V1 m ρ) c]
  show Cert.Spec.convRelu (W1 m ρ c (Proc.devRef .tc main_v22)) (W1 m ρ c (Proc.devRef .tc main_arg0)) (W1 m ρ c (Proc.devRef .tc main_arg2))
    (W1 m ρ c (Proc.devRef .tc main_arg4)) (Cert.Spec.unrow (W1 m ρ c (Proc.devRef .tc main_v23))) = _
  rw [w1_v22, w1_arg0, w1_arg2, w1_arg4, w1_v23, hR34]

/-- What the first region does not write it leaves. -/
theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)
theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)
theorem w2_v10 : W2 m ρ c (Proc.devRef .tc main_v10) = Cert.ReferenceIdeal.Read.val_main_v76 (F := Ideal) (m ((c : Thread nD τ).loc main_arg1)) :=
  (W2_of_ne m ρ c main_v10 (by decide)).trans (w1_v10 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-! ## Between the first and the second region: the batch statistics -/

theorem w3_v24 (hK0 : Region0Is) (hR34 : Stage34Is) :
    W3 m ρ c (Proc.devRef .tc main_v24) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (show StableHlo.after hostOps1 (W2 m ρ c) (Proc.devRef .tc main_v24) = W2 m ρ c (Proc.devRef .tc main_v24) by
    dsimp only [hostOps1]
    after_results_simp <;> rfl).trans (w2_v24 m ρ c hK0 hR34)

/-- The channel means, as a one-row matrix. -/
theorem w3_v35 (hK0 : Region0Is) (hR34 : Stage34Is) :
    Cert.Spec.unrow (W3 m ρ c (Proc.devRef .tc main_v35)) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W3 m ρ c (Proc.devRef .tc main_v35)
      = shapeCast S1x256 (Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S256_S1x256 := by
    show StableHlo.after hostOps1 (W2 m ρ c) (Proc.devRef .tc main_v35) = _
    dsimp only [hostOps1]
    after_results_simp
    rw [w2_v24 m ρ c hK0 hR34]
    rfl
  rw [e]; exact unrow_shapeCast _ _

/-- The channel variances, as a one-row matrix. -/
theorem w3_v36 (hK0 : Region0Is) (hR34 : Stage34Is) :
    Cert.Spec.unrow (W3 m ρ c (Proc.devRef .tc main_v36)) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W3 m ρ c (Proc.devRef .tc main_v36)
      = shapeCast S1x256 (Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S256_S1x256 := by
    show StableHlo.after hostOps1 (W2 m ρ c) (Proc.devRef .tc main_v36) = _
    dsimp only [hostOps1]
    after_results_simp
    rw [w2_v24 m ρ c hK0 hR34]
    rfl
  rw [e]; exact unrow_shapeCast _ _

theorem w3_v37 : Cert.Spec.unrow (W3 m ρ c (Proc.devRef .tc main_v37)) = (m ((c : Thread nD τ).loc main_arg5)) := by
  have e : W3 m ρ c (Proc.devRef .tc main_v37) = shapeCast S1x256 (m ((c : Thread nD τ).loc main_arg5)) shapeCasts_S256_S1x256 := by
    show StableHlo.after hostOps1 (W2 m ρ c) (Proc.devRef .tc main_v37) = _
    dsimp only [hostOps1]
    after_results_simp
    rw [w2_arg5]
    rfl
  rw [e]; exact unrow_shapeCast _ _

theorem w3_v38 : Cert.Spec.unrow (W3 m ρ c (Proc.devRef .tc main_v38)) = (m ((c : Thread nD τ).loc main_arg6)) := by
  have e : W3 m ρ c (Proc.devRef .tc main_v38) = shapeCast S1x256 (m ((c : Thread nD τ).loc main_arg6)) shapeCasts_S256_S1x256 := by
    show StableHlo.after hostOps1 (W2 m ρ c) (Proc.devRef .tc main_v38) = _
    dsimp only [hostOps1]
    after_results_simp
    rw [w2_arg6]
    rfl
  rw [e]; exact unrow_shapeCast _ _

theorem w3_v1 : W3 m ρ c (Proc.devRef .tc main_v1) = Cert.ReferenceIdeal.Read.val_main_v1 (F := Ideal) (m ((c : Thread nD τ).loc main_arg1)) :=
  (show StableHlo.after hostOps1 (W2 m ρ c) (Proc.devRef .tc main_v1) = W2 m ρ c (Proc.devRef .tc main_v1) by
    dsimp only [hostOps1]
    after_results_simp <;> rfl).trans (w2_v1 m ρ c)
theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)
theorem w3_v3 : W3 m ρ c (Proc.devRef .tc main_v3) = Cert.ReferenceIdeal.Read.val_main_v3 (F := Ideal) (m ((c : Thread nD τ).loc main_arg1)) :=
  (show StableHlo.after hostOps1 (W2 m ρ c) (Proc.devRef .tc main_v3) = W2 m ρ c (Proc.devRef .tc main_v3) by
    dsimp only [hostOps1]
    after_results_simp <;> rfl).trans (w2_v3 m ρ c)
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w3_v10 : W3 m ρ c (Proc.devRef .tc main_v10) = Cert.ReferenceIdeal.Read.val_main_v76 (F := Ideal) (m ((c : Thread nD τ).loc main_arg1)) :=
  (show StableHlo.after hostOps1 (W2 m ρ c) (Proc.devRef .tc main_v10) = W2 m ρ c (Proc.devRef .tc main_v10) by
    dsimp only [hostOps1]
    after_results_simp <;> rfl).trans (w2_v10 m ρ c)
theorem w4_v10 : W4 m ρ c (Proc.devRef .tc main_v10) = Cert.ReferenceIdeal.Read.val_main_v76 (F := Ideal) (m ((c : Thread nD τ).loc main_arg1)) :=
  (W4_of_ne m ρ c main_v10 (by decide)).trans (w3_v10 m ρ c)
theorem w3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by
    dsimp only [hostOps1]
    after_results_simp <;> rfl).trans (w2_arg7 m ρ c)
theorem w4_arg7 : W4 m ρ c (Proc.devRef .tc main_arg7) = (m ((c : Thread nD τ).loc main_arg7)) :=
  (W4_of_ne m ρ c main_arg7 (by decide)).trans (w3_arg7 m ρ c)
theorem w3_arg8 : W3 m ρ c (Proc.devRef .tc main_arg8) = (m ((c : Thread nD τ).loc main_arg8)) :=
  (show StableHlo.after hostOps1 (W2 m ρ c) (Proc.devRef .tc main_arg8) = W2 m ρ c (Proc.devRef .tc main_arg8) by
    dsimp only [hostOps1]
    after_results_simp <;> rfl).trans (w2_arg8 m ρ c)
theorem w4_arg8 : W4 m ρ c (Proc.devRef .tc main_arg8) = (m ((c : Thread nD τ).loc main_arg8)) :=
  (W4_of_ne m ρ c main_arg8 (by decide)).trans (w3_arg8 m ρ c)
theorem w3_arg9 : W3 m ρ c (Proc.devRef .tc main_arg9) = (m ((c : Thread nD τ).loc main_arg9)) :=
  (show StableHlo.after hostOps1 (W2 m ρ c) (Proc.devRef .tc main_arg9) = W2 m ρ c (Proc.devRef .tc main_arg9) by
    dsimp only [hostOps1]
    after_results_simp <;> rfl).trans (w2_arg9 m ρ c)
theorem w4_arg9 : W4 m ρ c (Proc.devRef .tc main_arg9) = (m ((c : Thread nD τ).loc main_arg9)) :=
  (W4_of_ne m ρ c main_arg9 (by decide)).trans (w3_arg9 m ρ c)

/-! ## After the second region -/

/-- The second region's output is the reference's batch normalisation. -/
theorem w4_v39 (hK0 : Region0Is) (hK1 : Region1Is) (hR34 : Stage34Is) (hR59 : Stage59Is) :
    W4 m ρ c (Proc.devRef .tc main_v39) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [hK1 (V3 m ρ) c]
  show Cert.Spec.bn (W3 m ρ c (Proc.devRef .tc main_v24)) (Cert.Spec.unrow (W3 m ρ c (Proc.devRef .tc main_v35)))
    (Cert.Spec.unrow (W3 m ρ c (Proc.devRef .tc main_v36))) (Cert.Spec.unrow (W3 m ρ c (Proc.devRef .tc main_v37)))
    (Cert.Spec.unrow (W3 m ρ c (Proc.devRef .tc main_v38))) = _
  rw [w3_v24 m ρ c hK0 hR34, w3_v35 m ρ c hK0 hR34, w3_v36 m ρ c hK0 hR34, w3_v37, w3_v38, hR59]

/-! ## Between the second and the third region: the neighbour means of the normalised features -/

theorem w5_v39 (hK0 : Region0Is) (hK1 : Region1Is) (hR34 : Stage34Is) (hR59 : Stage59Is) :
    W5 m ρ c (Proc.devRef .tc main_v39) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show StableHlo.after hostOps2 (W4 m ρ c) (Proc.devRef .tc main_v39) = W4 m ρ c (Proc.devRef .tc main_v39) by
    dsimp only [hostOps2]
    after_results_simp <;> rfl).trans (w4_v39 m ρ c hK0 hK1 hR34 hR59)

theorem w5_v51 (hK0 : Region0Is) (hK1 : Region1Is) (hR34 : Stage34Is) (hR59 : Stage59Is) :
    W5 m ρ c (Proc.devRef .tc main_v51) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v51) = _
  dsimp only [hostOps2]
  after_results_simp
  rw [w4_v39 m ρ c hK0 hK1 hR34 hR59, w4_v1, w4_v3, w4_v10]
  rfl

theorem w5_v52 : Cert.Spec.unrow (W5 m ρ c (Proc.devRef .tc main_v52)) = (m ((c : Thread nD τ).loc main_arg8)) := by
  have e : W5 m ρ c (Proc.devRef .tc main_v52) = shapeCast S1x256 (m ((c : Thread nD τ).loc main_arg8)) shapeCasts_S256_S1x256 := by
    show StableHlo.after hostOps2 (W4 m ρ c) (Proc.devRef .tc main_v52) = _
    dsimp only [hostOps2]
    after_results_simp
    rw [w4_arg8]
    rfl
  rw [e]; exact unrow_shapeCast _ _

theorem w5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) by
    dsimp only [hostOps2]
    after_results_simp <;> rfl).trans (w4_arg7 m ρ c)
theorem w5_arg9 : W5 m ρ c (Proc.devRef .tc main_arg9) = (m ((c : Thread nD τ).loc main_arg9)) :=
  (show StableHlo.after hostOps2 (W4 m ρ c) (Proc.devRef .tc main_arg9) = W4 m ρ c (Proc.devRef .tc main_arg9) by
    dsimp only [hostOps2]
    after_results_simp <;> rfl).trans (w4_arg9 m ρ c)

/-! ## After the third region: the result -/

/-- The kernel program's result array is the reference's last stage of the same arguments. -/
theorem result (hK0 : Region0Is) (hK1 : Region1Is) (hK2 : Region2Is) (hR34 : Stage34Is) (hR59 : Stage59Is) (hR89 : Stage89Is) :
    W6 m ρ c (Proc.devRef .tc main_v53) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  rw [hK2 (V5 m ρ) c]
  show Cert.Spec.conv (W5 m ρ c (Proc.devRef .tc main_v51)) (W5 m ρ c (Proc.devRef .tc main_v39)) (W5 m ρ c (Proc.devRef .tc main_arg7))
    (W5 m ρ c (Proc.devRef .tc main_arg9)) (Cert.Spec.unrow (W5 m ρ c (Proc.devRef .tc main_v52))) = _
  rw [w5_v51 m ρ c hK0 hK1 hR34 hR59, w5_v39 m ρ c hK0 hK1 hR34 hR59, w5_arg7, w5_arg9, w5_v52, hR89]

end Cert.KernelIdeal.Glue

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Region0Pay.lean ====
/-
  The first matrix layer's block computation, read at one entry, on the extended reals.

  For a block of 2000 rows the computation forms pre(p,j) = Σ_k x0(p,k)·x2(k,j) + Σ_k x1(p,k)·x3(k,j) + x4(0,j),
  the Euclidean length of row p floored at the word 1e-12, the quotient, and the maximum with zero. Changing the
  storage format of an operand is the identity here; a product accumulated into a zero splat is the sum over the
  contracted coordinate; the lane sum of the squares is the sum over the 256 columns; the column of lengths is laid
  along every column of its row.
-/
import proofs.«179194_j5385888989904_1_alg».proof.Proof.Gen.KernelIdeal.Skeleton
import proofs.«179194_j5385888989904_1_alg».proof.Proof.Spec
import proofs.«179194_j5385888989904_1_alg».proof.Proof.LibSoftplus
import proofs.«179194_j5385888989904_1_alg».proof.Proof.LibColumnLayout
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx

/-- The layer before normalisation on a block: entry (p, j). -/
def preB (x0 x1 : Vec Ideal S2000x128 .f32) (x2 x3 : Vec Ideal S128x256 .f32) (x4 : Vec Ideal S1x256 .f32)
    (p : Fin 2000) (j : Fin 256) : EReal :=
  (∑ k : Fin 128, x0 (ix2 p k) * x2 (ix2 k j) + ∑ k : Fin 128, x1 (ix2 p k) * x3 (ix2 k j)) + x4 (ix2 (0 : Fin 1) j)

/-- The same as an array of the block's shape, as the operations spell it. -/
def preV (x0 x1 : Vec Ideal S2000x128 .f32) (x2 x3 : Vec Ideal S128x256 .f32) (x4 : Vec Ideal S1x256 .f32) :
    FVec Ideal S2000x256 .f32 :=
  addf
    (addf
      (matmul dot_S2000x128_S128x256_S2000x256_1_0_0_1_n_n none
        (truncf .bf16 (shapeCast S2000x128 x0 shapeCasts_S2000x128_S2000x128) bitsLt_bf16_f32)
        (truncf .bf16 x2 bitsLt_bf16_f32) (constant (F := Ideal) S2000x256 .f32 0x00000000#32))
      (matmul dot_S2000x128_S128x256_S2000x256_1_0_0_1_n_n none
        (truncf .bf16 x1 bitsLt_bf16_f32)
        (truncf .bf16 x3 bitsLt_bf16_f32) (constant (F := Ideal) S2000x256 .f32 0x00000000#32)))
    (broadcastTo S2000x256 (shapeCast S1x256 x4 shapeCasts_S1x256_S1x256) broadcasts_S1x256_S2000x256)

/-- The dimension numbers of the two products are the plain ones. -/
theorem dot_plain : dot_S2000x128_S128x256_S2000x256_1_0_0_1_n_n = DotDims.plain 2000 128 256 := rfl

theorem preV_apply (x0 x1 : Vec Ideal S2000x128 .f32) (x2 x3 : Vec Ideal S128x256 .f32) (x4 : Vec Ideal S1x256 .f32)
    (p : Fin 2000) (j : Fin 256) : preV x0 x1 x2 x3 x4 (ix2 p j) = preB x0 x1 x2 x3 x4 p j := by
  unfold preV preB
  rw [addf_apply, addf_apply, broadcastTo_1b_ab_apply, shapeCast_self, shapeCast_self]
  refine congrArg₂ (· + ·) (congrArg₂ (· + ·) ?_ ?_) rfl
  · exact Cert.Lib.Softplus.matmul0_plain_apply _ dot_plain none _ _ p j
  · exact Cert.Lib.Softplus.matmul0_plain_apply _ dot_plain none _ _ p j

/-- The column of row lengths of an array of the block's shape, floored at the word 1e-12, as the operations spell it. -/
def normV (v : FVec Ideal S2000x256 .f32) : FVec Ideal S2000x1 .f32 :=
  maximumf
    (sqrt (shapeCast S2000x1
      (multiReduction (F := Ideal) .add [1] S2000 (mulf v v) 0x00000000#32 reduces_S2000x256_S2000 (.inl rfl) rfl)
      shapeCasts_S2000_S2000x1))
    (broadcast S2000x1 (Scalar.ofBits (F := Ideal) .f32 0x2B8CBCCC#32))

/-- The lane sum of the squares at row p is the sum over the 256 columns. -/
theorem rowSq_apply (v : FVec Ideal S2000x256 .f32) (f : Fin 256 → EReal) (p : Fin 2000) (hv : ∀ j : Fin 256, v (ix2 p j) = f j) :
    multiReduction (F := Ideal) .add [1] S2000 (mulf v v) 0x00000000#32 reduces_S2000x256_S2000 (.inl rfl) rfl (ix1 p)
      = ∑ j : Fin 256, f j * f j := by
  refine (Ideal.multiReduction_add_single (mulf v v) 0x00000000#32 reduces_S2000x256_S2000 (.inl rfl) rfl (ix1 p)).trans ?_
  show ∑ k : Fin 256, mulf v v (reduces_S2000x256_S2000.lift (ix1 p) k) = _
  refine Finset.sum_congr rfl fun k _ => ?_
  have e : reduces_S2000x256_S2000.lift (ix1 p) k = ix2 p k := by
    funext c; apply Fin.ext
    match c with
    | ⟨0, _⟩ => rfl
    | ⟨1, _⟩ => rfl
  rw [e, mulf_apply, hv]

theorem normV_apply (v : FVec Ideal S2000x256 .f32) (f : Fin 256 → EReal) (p : Fin 2000) (hv : ∀ j : Fin 256, v (ix2 p j) = f j) :
    normV v (ix2 p (0 : Fin 1)) = max (Ideal.sqrt (∑ j : Fin 256, f j * f j)) Cert.Spec.normEps := by
  show max (Ideal.sqrt (shapeCast S2000x1
      (multiReduction (F := Ideal) .add [1] S2000 (mulf v v) 0x00000000#32 reduces_S2000x256_S2000 (.inl rfl) rfl)
      shapeCasts_S2000_S2000x1 (ix2 p (0 : Fin 1)))) (Ideal.ofBits .f32 0x2B8CBCCC#32) = _
  refine congrArg₂ max (congrArg Ideal.sqrt ?_) rfl
  exact (PhysLoss.shapeCast_a_a1_apply _ shapeCasts_S2000_S2000x1 p (0 : Fin 1)).trans (rowSq_apply v f p hv)

/-- The block computation is the quotient by the laid-out column of lengths, then the maximum with a zero splat. -/
theorem pay_eq (x0 x1 : Vec Ideal S2000x128 .f32) (x2 x3 : Vec Ideal S128x256 .f32) (x4 : Vec Ideal S1x256 .f32) :
    k0_pay1 x0 x1 x2 x3 x4
      = maximumf
          (divf (preV x0 x1 x2 x3 x4) (broadcastTo S2000x256 (normV (preV x0 x1 x2 x3 x4)) broadcasts_S2000x1_S2000x256))
          (broadcast S2000x256 (Scalar.ofBits (F := Ideal) .f32 0x00000000#32)) := rfl

/-- THE BLOCK COMPUTATION AT AN ENTRY. -/
theorem pay_apply (x0 x1 : Vec Ideal S2000x128 .f32) (x2 x3 : Vec Ideal S128x256 .f32) (x4 : Vec Ideal S1x256 .f32)
    (p : Fin 2000) (q : Fin 256) :
    k0_pay1 x0 x1 x2 x3 x4 (ix2 p q)
      = max (Ideal.div (preB x0 x1 x2 x3 x4 p q)
          (max (Ideal.sqrt (∑ j : Fin 256, preB x0 x1 x2 x3 x4 p j * preB x0 x1 x2 x3 x4 p j)) Cert.Spec.normEps)) 0 := by
  rw [pay_eq]
  show max (Ideal.div (preV x0 x1 x2 x3 x4 (ix2 p q))
      (broadcastTo S2000x256 (normV (preV x0 x1 x2 x3 x4)) broadcasts_S2000x1_S2000x256 (ix2 p q)))
    (Ideal.ofBits .f32 0x00000000#32) = _
  refine congrArg₂ max (congrArg₂ Ideal.div (preV_apply x0 x1 x2 x3 x4 p q) ?_) Ideal.ofBits_zero_f32
  exact (PhysLoss.broadcastTo_a1_ab_apply _ broadcasts_S2000x1_S2000x256 p q).trans
    (normV_apply _ _ p fun j => preV_apply x0 x1 x2 x3 x4 p j)

end Cert.KernelIdeal.Region0

end
-- ==== Proof.Region0.lean ====
/-
  The first matrix layer as one function of the whole arrays.

  The grid has 25 points; point t works on rows 2000·t … 2000·t + 1999 of the two feature arrays and of the result, and on
  the whole of the two weight matrices and of the bias row. A row's Euclidean length needs the whole row, which lies in one
  block. So what point t writes back is block t of the array convRelu of the five arrays, and the 25 blocks tile the result.
-/
import proofs.«179194_j5385888989904_1_alg».proof.Proof.PatchedKernelIdealFrame
import proofs.«179194_j5385888989904_1_alg».proof.Proof.Spec
import proofs.«179194_j5385888989904_1_alg».proof.Proof.Region0Pay
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the row-tiled windows are at row block t, column block 0; the weight and bias
    windows at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 2000·t + p of the array. -/
def rowOf (t : Fin cfg0.N) (p : Fin 2000) : Fin 50000 :=
  ⟨t.val * 2000 + p.val, by have h : t.val < 25 := lt_of_lt_of_eq t.isLt N_0; have := p.isLt; omega⟩

/-- The neighbours' block at point t. -/
theorem blk0_apply (c : Dev nD) (t : Fin cfg0.N) (p : Fin 2000) (k : Fin 128) :
    (iblk0 V c 0 t : Vec Ideal S2000x128 .f32) (ix2 p k) = (V c main_v22 : S50000x128.Idx → EReal) (ix2 (rowOf t p) k) := by
  obtain ⟨e0, e1, -⟩ := idx_facts t
  unfold iblk0
  rw [View.read_apply]
  show V c main_v22 _ = V c main_v22 _
  refine congrArg (V c main_v22) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The nodes' own block at point t. -/
theorem blk1_apply (c : Dev nD) (t : Fin cfg0.N) (p : Fin 2000) (k : Fin 128) :
    (iblk0 V c 1 t : Vec Ideal S2000x128 .f32) (ix2 p k) = (V c main_arg0 : S50000x128.Idx → EReal) (ix2 (rowOf t p) k) := by
  obtain ⟨-, -, e0, e1, -⟩ := idx_facts t
  unfold iblk0
  rw [View.read_apply]
  show V c main_arg0 _ = V c main_arg0 _
  refine congrArg (V c main_arg0) ?_
  funext a; apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The first weight matrix is one block at every point. -/
theorem blk2_apply (c : Dev nD) (t : Fin cfg0.N) (k : Fin 128) (j : Fin 256) :
    (iblk0 V c 2 t : Vec Ideal S128x256 .f32) (ix2 k j) = (V c main_arg2 : S128x256.Idx → EReal) (ix2 k j) := by
  obtain ⟨-, -, -, -, e0, e1, -⟩ := idx_facts t
  unfold iblk0
  rw [View.read_apply]
  show V c main_arg2 _ = V c main_arg2 _
  refine congrArg (V c main_arg2) ?_
  funext a; apply Fin.ext
  match a with
  | ⟨0, _⟩ => show win0_2.index t (0 : Fin 2) * 128 + 1 * k.val = k.val; rw [e0]; omega
  | ⟨1, _⟩ => show win0_2.index t (1 : Fin 2) * 256 + 1 * j.val = j.val; rw [e1]; omega

/-- The second weight matrix is one block at every point. -/
theorem blk3_apply (c : Dev nD) (t : Fin cfg0.N) (k : Fin 128) (j : Fin 256) :
    (iblk0 V c 3 t : Vec Ideal S128x256 .f32) (ix2 k j) = (V c main_arg4 : S128x256.Idx → EReal) (ix2 k j) := by
  obtain ⟨-, -, -, -, -, -, e0, e1, -⟩ := idx_facts t
  unfold iblk0
  rw [View.read_apply]
  show V c main_arg4 _ = V c main_arg4 _
  refine congrArg (V c main_arg4) ?_
  funext a; apply Fin.ext
  match a with
  | ⟨0, _⟩ => show win0_3.index t (0 : Fin 2) * 128 + 1 * k.val = k.val; rw [e0]; omega
  | ⟨1, _⟩ => show win0_3.index t (1 : Fin 2) * 256 + 1 * j.val = j.val; rw [e1]; omega

/-- The bias row is one block at every point. -/
theorem blk4_apply (c : Dev nD) (t : Fin cfg0.N) (j : Fin 256) :
    (iblk0 V c 4 t : Vec Ideal S1x256 .f32) (ix2 (0 : Fin 1) j) = (V c main_v23 : S1x256.Idx → EReal) (ix2 (0 : Fin 1) j) := by
  obtain ⟨-, -, -, -, -, -, -, -, e0, e1, -⟩ := idx_facts t
  unfold iblk0
  rw [View.read_apply]
  show V c main_v23 _ = V c main_v23 _
  refine congrArg (V c main_v23) ?_
  funext a; apply Fin.ext
  match a with
  | ⟨0, _⟩ => show win0_4.index t (0 : Fin 2) * 1 + 1 * 0 = 0; rw [e0]
  | ⟨1, _⟩ => show win0_4.index t (1 : Fin 2) * 256 + 1 * j.val = j.val; rw [e1]; omega

/-- A block's pre-activation is the arrays' at the block's row, when the block's entries are the arrays'. -/
theorem preB_eq_pre (x0 x1 : Vec Ideal S2000x128 .f32) (x2 x3 : Vec Ideal S128x256 .f32) (x4 : Vec Ideal S1x256 .f32)
    (A X : Cert.Spec.Mat 50000 128) (Wl Wr : Cert.Spec.Mat 128 256) (b : Cert.Spec.Mat 1 256) (p : Fin 2000) (i : Fin 50000)
    (h0 : ∀ k : Fin 128, x0 (ix2 p k) = A (ix2 i k)) (h1 : ∀ k : Fin 128, x1 (ix2 p k) = X (ix2 i k))
    (h2 : ∀ (k : Fin 128) (j : Fin 256), x2 (ix2 k j) = Wl (ix2 k j)) (h3 : ∀ (k : Fin 128) (j : Fin 256), x3 (ix2 k j) = Wr (ix2 k j))
    (h4 : ∀ j : Fin 256, x4 (ix2 (0 : Fin 1) j) = b (ix2 (0 : Fin 1) j)) (j : Fin 256) :
    preB x0 x1 x2 x3 x4 p j = Cert.Spec.pre A X Wl Wr (Cert.Spec.unrow b) i j := by
  unfold preB Cert.Spec.pre
  rw [Cert.Spec.unrow_apply]
  simp only [h0, h1, h2, h3, h4]

/-- The array the result ends holding. -/
abbrev G (c : Dev nD) : Cert.Spec.Mat 50000 256 :=
  Cert.Spec.convRelu (V c main_v22) (V c main_arg0) (V c main_arg2) (V c main_arg4) (Cert.Spec.unrow (V c main_v23))

/-- WHAT POINT t WRITES BACK is block t of G. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x256) hz, View.ld_unit_zero (S := S1x256) hz]
  refine funext fun (y : S2000x256.Idx) => ?_
  obtain ⟨p, q, rfl⟩ : ∃ (p : Fin 2000) (q : Fin 256), y = ix2 p q := ⟨y 0, y 1, eq_ix2 y⟩
  obtain ⟨-, -, -, -, -, -, -, -, -, -, e0, e1⟩ := idx_facts t
  have hemb : ((cfg0.win 5).blk t).view.emb (ix2 p q) = ix2 (rowOf t p) q := by
    funext a; apply Fin.ext
    match a with
    | ⟨0, _⟩ => show win0_5.index t (0 : Fin 2) * 2000 + 1 * p.val = t.val * 2000 + p.val; rw [e0]; omega
    | ⟨1, _⟩ => show win0_5.index t (1 : Fin 2) * 256 + 1 * q.val = q.val; rw [e1]; omega
  show k0_pay1 (iblk0 V c 0 t) (iblk0 V c 1 t) (iblk0 V c 2 t) (iblk0 V c 3 t) (iblk0 V c 4 t) (ix2 p q)
    = G V c (((cfg0.win 5).blk t).view.emb (ix2 p q))
  rw [hemb]
  refine (pay_apply (iblk0 V c 0 t) (iblk0 V c 1 t) (iblk0 V c 2 t) (iblk0 V c 3 t) (iblk0 V c 4 t) p q).trans ?_
  have hpre : ∀ j : Fin 256, preB (iblk0 V c 0 t) (iblk0 V c 1 t) (iblk0 V c 2 t) (iblk0 V c 3 t) (iblk0 V c 4 t) p j
      = Cert.Spec.pre (V c main_v22) (V c main_arg0) (V c main_arg2) (V c main_arg4) (Cert.Spec.unrow (V c main_v23)) (rowOf t p) j :=
    preB_eq_pre _ _ _ _ _ (V c main_v22) (V c main_arg0) (V c main_arg2) (V c main_arg4) (V c main_v23) p (rowOf t p)
      (blk0_apply V c t p) (blk1_apply V c t p) (blk2_apply V c t) (blk3_apply V c t) (blk4_apply V c t)
  simp only [hpre]
  rfl

/-- An index of the result is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every index of the result is in the block of the point its row falls in. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  let t : Fin cfg0.N := ⟨(i 0).val / 2000, by rw [show cfg0.N = 25 from N_0]; omega⟩
  obtain ⟨-, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE RESULT after the region: the normalised layer followed by the maximum with zero, of the arrays as the region finds them. -/
theorem final (V : (c : Dev nD) → (b : Ref sig .tc) → Buf (Elt Ideal) ((c : Thread nD τ).loc b)) (c : Dev nD) :
    (Gen.dat0 (F := Ideal) V c).arrAt 5 cfg0.N
      = Cert.Spec.convRelu (V c main_v22) (V c main_arg0) (V c main_arg2) (V c main_arg4) (Cert.Spec.unrow (V c main_v23)) :=
  (Gen.dat0 (F := Ideal) V c).arrAt_eq_of_cover 5 (G V c) (fun t _ => flushed_eq V c t) cover

end Cert.KernelIdeal.Region0

end
-- ==== Proof.Region1.lean ====
/-
  Batch normalisation as the middle region of the kernel program computes it.

  The region walks the 25 row tiles of a [50000, 256] array H.  At tile t it holds rows 2000·t … 2000·t+1999
  of H and the four one-row arrays μ, σ², γ, β, and leaves in the output's tile, at row p and channel q,
  ((H(2000·t+p, q) − μ(q)) · rsqrt(σ²(q) + ε')) · γ(q) + β(q).
  The tiles partition the rows, so the output array ends as that function of (row, channel) everywhere.
-/
import proofs.«179194_j5385888989904_1_alg».proof.Proof.PatchedKernelIdealFrame
import proofs.«179194_j5385888989904_1_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The tile's payload at row `p` and channel `q`: the identity casts drop, each one-row operand broadcast over the
    rows reads its single row at `q`, and the pointwise operations read their operands at the same index. -/
theorem pay_apply (x0 : Vec Ideal S2000x256 .f32) (x1 x2 x3 x4 : Vec Ideal S1x256 .f32) (p : Fin 2000) (q : Fin 256) :
    Gen.k1_pay1 x0 x1 x2 x3 x4 (ix2 p q)
      = ((x0 (ix2 p q) - x1 (ix2 (0 : Fin 1) q)) * Ideal.rsqrt (x2 (ix2 (0 : Fin 1) q) + Cert.Spec.bnEps)) * x3 (ix2 (0 : Fin 1) q)
          + x4 (ix2 (0 : Fin 1) q) := by
  unfold Gen.k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-! ## From tiles to the array -/

/-- The offset of a whole-tile access is zero on both axes. -/
theorem off_zero : (![0, 0] : Fin 2 → Nat) = fun _ => 0 := funext fun a => by fin_cases a <;> rfl

/-- What the body leaves in the output's tile is the payload of the loaded tiles: its one store covers the tile, and
    each load reads a whole tile. -/
theorem out_eq (x0 : Vec Ideal S2000x256 .f32) (x1 x2 x3 x4 : Vec Ideal S1x256 .f32) :
    Gen.out1_5 x0 x1 x2 x3 x4 = Gen.k1_pay1 x0 x1 x2 x3 x4 := by
  unfold Gen.out1_5
  rw [View.canon_unit_zero off_zero]
  simp only [View.ld_unit_zero (S := S2000x256) off_zero, View.ld_unit_zero (S := S1x256) off_zero]

/-- The tile indices over the 25 grid points: the input H moves with the output, tile `t` of the rows and the one
    tile of the channels; each one-row operand stays at its only tile. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is tile `t` of the batch normalisation of the arrays the region finds: row `p` of the
    tile is row `2000·t + p` of H, and the one-row operands are read at the channel. -/
theorem flushed_eq (V : (c : Dev nD) → (b : Ref sig .tc) → Buf (Elt Ideal) ((c : Thread nD τ).loc b)) (c : Dev nD) (t : Fin cfg1.N) :
    (Gen.dat1 (F := Ideal) V c).flushed 5 t
      = ((cfg1.win 5).blk t).view.read (Elt Ideal)
          (Cert.Spec.bn (V c main_v24) (Cert.Spec.unrow (V c main_v35)) (Cert.Spec.unrow (V c main_v36))
            (Cert.Spec.unrow (V c main_v37)) (Cert.Spec.unrow (V c main_v38))) := by
  show (cfg1.win 5).cut (grid1.coords t) ((Gen.dat1 (F := Ideal) V c).after 5 t) = _
  rw [Gen.after1_5, out_eq]
  obtain ⟨e00, e01, e10, e11, e20, e21, e30, e31, e40, e41, e50, e51⟩ := idx_facts t
  refine funext fun (j : S2000x256.Idx) => ?_
  obtain ⟨p, q, rfl⟩ : ∃ (p : Fin 2000) (q : Fin 256), j = ix2 p q := ⟨j 0, j 1, eq_ix2 j⟩
  refine (pay_apply (Gen.iblk1 V c 0 t) (Gen.iblk1 V c 1 t) (Gen.iblk1 V c 2 t) (Gen.iblk1 V c 3 t) (Gen.iblk1 V c 4 t) p q).trans ?_
  have h0 : Gen.iblk1 V c 0 t (ix2 p q)
      = V c main_v24 (ix2 ((((cfg1.win 5).blk t).view.emb (ix2 p q)) 0) ((((cfg1.win 5).blk t).view.emb (ix2 p q)) 1)) := by
    show V c main_v24 (((cfg1.win 0).blk t).view.emb (ix2 p q)) = _
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * q.val = win1_5.index t (1 : Fin 2) * 256 + 1 * q.val; omega
  have h1 : Gen.iblk1 V c 1 t (ix2 (0 : Fin 1) q)
      = V c main_v35 (ix2 (0 : Fin 1) ((((cfg1.win 5).blk t).view.emb (ix2 p q)) 1)) := by
    show V c main_v35 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * q.val = win1_5.index t (1 : Fin 2) * 256 + 1 * q.val; omega
  have h2 : Gen.iblk1 V c 2 t (ix2 (0 : Fin 1) q)
      = V c main_v36 (ix2 (0 : Fin 1) ((((cfg1.win 5).blk t).view.emb (ix2 p q)) 1)) := by
    show V c main_v36 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = win1_5.index t (1 : Fin 2) * 256 + 1 * q.val; omega
  have h3 : Gen.iblk1 V c 3 t (ix2 (0 : Fin 1) q)
      = V c main_v37 (ix2 (0 : Fin 1) ((((cfg1.win 5).blk t).view.emb (ix2 p q)) 1)) := by
    show V c main_v37 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * q.val = win1_5.index t (1 : Fin 2) * 256 + 1 * q.val; omega
  have h4 : Gen.iblk1 V c 4 t (ix2 (0 : Fin 1) q)
      = V c main_v38 (ix2 (0 : Fin 1) ((((cfg1.win 5).blk t).view.emb (ix2 p q)) 1)) := by
    show V c main_v38 (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * q.val = win1_5.index t (1 : Fin 2) * 256 + 1 * q.val; omega
  rw [h0, h1, h2, h3, h4]
  rfl

/-- An index of the array is in point `t`'s tile iff each coordinate is in the tile's range on its axis. -/
theorem mem_blk (t : Fin cfg1.N) (i : S50000x256.Idx) :
    i ∈ ((cfg1.win 5).blk t).view.set
      ↔ ∀ a : Fin 2, win1_5.index t a * S2000x256.size a ≤ (i a).val ∧ (i a).val < win1_5.index t a * S2000x256.size a + S2000x256.size a := by
  show i ∈ ((View.whole main_v39).slice (win1_5.rect t)).set ↔ _
  rw [View.set_slice_whole, Rect.mem_set_unit]
  exact Iff.rfl

/-- The tiles cover the array: row `r` lies in tile `r / 2000`, and the one tile of the channels holds every channel. -/
theorem cover (i : S50000x256.Idx) :
    ∃ t : Fin cfg1.N, (cfg1.win 5).flush t = true ∧ i ∈ ((cfg1.win 5).blk t).view.set := by
  have hN : grid1.N = 25 := by decide
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show (i 0).val / 2000 < grid1.N; omega⟩, rfl⟩
  obtain ⟨e00, e01, e10, e11, e20, e21, e30, e31, e40, e41, e50, e51⟩ := idx_facts t
  refine ⟨t, Gen.flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE ARRAY the region leaves: the batch normalisation of the array H it finds, with the one-row arrays it finds as
    mean, variance, γ and β. -/
theorem final (V : (c : Dev nD) → (b : Ref sig .tc) → Buf (Elt Ideal) ((c : Thread nD τ).loc b)) (c : Dev nD) :
    (Gen.dat1 (F := Ideal) V c).arrAt 5 cfg1.N
      = Cert.Spec.bn (V c main_v24) (Cert.Spec.unrow (V c main_v35)) (Cert.Spec.unrow (V c main_v36)) (Cert.Spec.unrow (V c main_v37)) (Cert.Spec.unrow (V c main_v38)) :=
  (Gen.dat1 (F := Ideal) V c).arrAt_eq_of_cover 5 _ (fun t _ => flushed_eq V c t) cover

end Cert.KernelIdeal.Region1

end
-- ==== Proof.Region2Pay.lean ====
/-
  The second matrix layer's block computation, read at one entry, on the extended reals.

  For a block of 2000 rows the computation forms pre(p,j) = Σ_k x0(p,k)·x2(k,j) + Σ_k x1(p,k)·x3(k,j) + x4(0,j) over 256
  contracted coordinates, the Euclidean length of row p floored at the word 1e-12, and the quotient. Changing the storage
  format of an operand is the identity here; a product accumulated into a zero splat is the sum over the contracted
  coordinate; the lane sum of the squares is the sum over the 256 columns; the column of lengths is laid along every
  column of its row.
-/
import proofs.«179194_j5385888989904_1_alg».proof.Proof.Gen.KernelIdeal.Skeleton
import proofs.«179194_j5385888989904_1_alg».proof.Proof.Spec
import proofs.«179194_j5385888989904_1_alg».proof.Proof.LibSoftplus
import proofs.«179194_j5385888989904_1_alg».proof.Proof.LibColumnLayout
import proofs.«179194_j5385888989904_1_alg».proof.Proof.Region0Pay
import Idealize.ShloMosaic.Lib.ValueLayout
import Idealize.ShloMosaic.PureOps.Ideal.Laws

noncomputable section

open scoped BigOperators

namespace Cert.KernelIdeal.Region2

open Cert.KernelIdeal Cert.KernelIdeal.Gen Idealize.ShloMosaic Idealize.ShloMosaic.ValueIdx

/-- The layer before normalisation on a block: entry (p, j). -/
def preB (x0 x1 : Vec Ideal S2000x256 .f32) (x2 x3 : Vec Ideal S256x256 .f32) (x4 : Vec Ideal S1x256 .f32)
    (p : Fin 2000) (j : Fin 256) : EReal :=
  (∑ k : Fin 256, x0 (ix2 p k) * x2 (ix2 k j) + ∑ k : Fin 256, x1 (ix2 p k) * x3 (ix2 k j)) + x4 (ix2 (0 : Fin 1) j)

/-- The same as an array of the block's shape, as the operations spell it. -/
def preV (x0 x1 : Vec Ideal S2000x256 .f32) (x2 x3 : Vec Ideal S256x256 .f32) (x4 : Vec Ideal S1x256 .f32) :
    FVec Ideal S2000x256 .f32 :=
  addf
    (addf
      (matmul dot_S2000x256_S256x256_S2000x256_1_0_0_1_n_n none
        (truncf .bf16 (shapeCast S2000x256 x0 shapeCasts_S2000x256_S2000x256) bitsLt_bf16_f32)
        (truncf .bf16 x2 bitsLt_bf16_f32) (constant (F := Ideal) S2000x256 .f32 0x00000000#32))
      (matmul dot_S2000x256_S256x256_S2000x256_1_0_0_1_n_n none
        (truncf .bf16 (shapeCast S2000x256 x1 shapeCasts_S2000x256_S2000x256) bitsLt_bf16_f32)
        (truncf .bf16 x3 bitsLt_bf16_f32) (constant (F := Ideal) S2000x256 .f32 0x00000000#32)))
    (broadcastTo S2000x256 (shapeCast S1x256 x4 shapeCasts_S1x256_S1x256) broadcasts_S1x256_S2000x256)

/-- The dimension numbers of the two products are the plain ones. -/
theorem dot_plain : dot_S2000x256_S256x256_S2000x256_1_0_0_1_n_n = DotDims.plain 2000 256 256 := rfl

theorem preV_apply (x0 x1 : Vec Ideal S2000x256 .f32) (x2 x3 : Vec Ideal S256x256 .f32) (x4 : Vec Ideal S1x256 .f32)
    (p : Fin 2000) (j : Fin 256) : preV x0 x1 x2 x3 x4 (ix2 p j) = preB x0 x1 x2 x3 x4 p j := by
  unfold preV preB
  rw [addf_apply, addf_apply, broadcastTo_1b_ab_apply, shapeCast_self, shapeCast_self, shapeCast_self]
  refine congrArg₂ (· + ·) (congrArg₂ (· + ·) ?_ ?_) rfl
  · exact Cert.Lib.Softplus.matmul0_plain_apply _ dot_plain none _ _ p j
  · exact Cert.Lib.Softplus.matmul0_plain_apply _ dot_plain none _ _ p j

/-- The block computation is the quotient by the laid-out column of lengths. -/
theorem pay_eq (x0 x1 : Vec Ideal S2000x256 .f32) (x2 x3 : Vec Ideal S256x256 .f32) (x4 : Vec Ideal S1x256 .f32) :
    k2_pay1 x0 x1 x2 x3 x4
      = divf (preV x0 x1 x2 x3 x4)
          (broadcastTo S2000x256 (Region0.normV (preV x0 x1 x2 x3 x4)) broadcasts_S2000x1_S2000x256) := rfl

/-- THE BLOCK COMPUTATION AT AN ENTRY. -/
theorem pay_apply (x0 x1 : Vec Ideal S2000x256 .f32) (x2 x3 : Vec Ideal S256x256 .f32) (x4 : Vec Ideal S1x256 .f32)
    (p : Fin 2000) (q : Fin 256) :
    k2_pay1 x0 x1 x2 x3 x4 (ix2 p q)
      = Ideal.div (preB x0 x1 x2 x3 x4 p q)
          (max (Ideal.sqrt (∑ j : Fin 256, preB x0 x1 x2 x3 x4 p j * preB x0 x1 x2 x3 x4 p j)) Cert.Spec.normEps) := by
  rw [pay_eq]
  show Ideal.div (preV x0 x1 x2 x3 x4 (ix2 p q))
      (broadcastTo S2000x256 (Region0.normV (preV x0 x1 x2 x3 x4)) broadcasts_S2000x1_S2000x256 (ix2 p q)) = _
  refine congrArg₂ Ideal.div (preV_apply x0 x1 x2 x3 x4 p q) ?_
  exact (PhysLoss.broadcastTo_a1_ab_apply _ broadcasts_S2000x1_S2000x256 p q).trans
    (Region0.normV_apply _ _ p fun j => preV_apply x0 x1 x2 x3 x4 p j)

end Cert.KernelIdeal.Region2

end
-- ==== Proof.Region2.lean ====
/-
  The second matrix layer as the last region of the kernel program computes it.

  The region walks the 25 row tiles of the result.  At tile t it holds rows 2000·t … 2000·t+1999 of the two feature
  arrays, the whole of the two weight matrices and the bias row.  A row's Euclidean length sums over all 256 channels of
  that row, and the whole row lies in one tile; so what tile t receives at row p and channel q is the normalised layer
  of the five arrays at row 2000·t + p and channel q.  The tiles partition the rows, so the result ends as the
  normalised layer everywhere.
-/
import proofs.«179194_j5385888989904_1_alg».proof.Proof.PatchedKernelIdealFrame
import proofs.«179194_j5385888989904_1_alg».proof.Proof.Spec
import proofs.«179194_j5385888989904_1_alg».proof.Proof.Region2Pay
import Idealize.ShloMosaic.Lib.Pipeline.Value
import Idealize.ShloMosaic.Lib.ValueIdx
import Idealize.ShloMosaic.PureOps.Ideal

set_option maxRecDepth 16384

noncomputable section

open scoped BigOperators

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## From tiles to the array -/

/-- The offset of a whole-tile access is zero on both axes. -/
theorem off_zero : (![0, 0] : Fin 2 → Nat) = fun _ => 0 := funext fun a => by fin_cases a <;> rfl

/-- What the body leaves in the result's tile is the payload of the loaded tiles: its one store covers the tile, and
    each load reads a whole tile. -/
theorem out_eq (x0 x1 : Vec Ideal S2000x256 .f32) (x2 x3 : Vec Ideal S256x256 .f32) (x4 : Vec Ideal S1x256 .f32) :
    Gen.out2_5 x0 x1 x2 x3 x4 = Gen.k2_pay1 x0 x1 x2 x3 x4 := by
  unfold Gen.out2_5
  rw [View.canon_unit_zero off_zero]
  simp only [View.ld_unit_zero (S := S2000x256) off_zero, View.ld_unit_zero (S := S256x256) off_zero,
    View.ld_unit_zero (S := S1x256) off_zero]

/-- The tile indices over the 25 grid points: the two feature arrays and the result are at tile `t` of the rows and the
    one tile of the columns; the weight matrices and the bias row stay at their only tile. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of tile `t` is row `2000·t + p` of the array. -/
def rowOf (t : Fin cfg2.N) (p : Fin 2000) : Fin 50000 :=
  ⟨t.val * 2000 + p.val, by
    have hN : grid2.N = 25 := by decide
    have ht : t.val < grid2.N := t.isLt
    have hp : p.val < 2000 := p.isLt
    omega⟩

/-- The neighbours' features in tile `t`: row `p` of the tile is row `2000·t + p` of the array. -/
theorem blk0_apply (V : (c : Dev nD) → (b : Ref sig .tc) → Buf (Elt Ideal) ((c : Thread nD τ).loc b)) (c : Dev nD) (t : Fin cfg2.N) (p : Fin 2000) (k : Fin 256) :
    Gen.iblk2 V c 0 t (ix2 p k) = V c main_v51 (ix2 (rowOf t p) k) := by
  obtain ⟨e00, e01, e10, e11, e20, e21, e30, e31, e40, e41, e50, e51⟩ := idx_facts t
  show V c main_v51 (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

/-- The nodes' own features in tile `t`, likewise. -/
theorem blk1_apply (V : (c : Dev nD) → (b : Ref sig .tc) → Buf (Elt Ideal) ((c : Thread nD τ).loc b)) (c : Dev nD) (t : Fin cfg2.N) (p : Fin 2000) (k : Fin 256) :
    Gen.iblk2 V c 1 t (ix2 p k) = V c main_v39 (ix2 (rowOf t p) k) := by
  obtain ⟨e00, e01, e10, e11, e20, e21, e30, e31, e40, e41, e50, e51⟩ := idx_facts t
  show V c main_v39 (((cfg2.win 1).blk t).view.emb (ix2 p k)) = _
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 256 + 1 * k.val = k.val; omega

/-- The first weight matrix is one tile at every point. -/
theorem blk2_apply (V : (c : Dev nD) → (b : Ref sig .tc) → Buf (Elt Ideal) ((c : Thread nD τ).loc b)) (c : Dev nD) (t : Fin cfg2.N) (k : Fin 256) (j : Fin 256) :
    Gen.iblk2 V c 2 t (ix2 k j) = V c main_arg7 (ix2 k j) := by
  obtain ⟨e00, e01, e10, e11, e20, e21, e30, e31, e40, e41, e50, e51⟩ := idx_facts t
  show V c main_arg7 (((cfg2.win 2).blk t).view.emb (ix2 k j)) = _
  refine congrArg _ (funext fun a => Fin.ext ?_)
  match a with
  | ⟨0, _⟩ => show win2_2.index t (0 : Fin 2) * 256 + 1 * k.val = k.val; omega
  | ⟨1, _⟩ => show win2_2.index t (1 : Fin 2) * 256 + 1 * j.val = j.val; omega

/-- The second weight matrix is one tile at every point. -/
theorem blk3_apply (V : (c : Dev nD) → (b : Ref sig .tc) → Buf (Elt Ideal) ((c : Thread nD τ).loc b)) (c : Dev nD) (t : Fin cfg2.N) (k : Fin 256) (j : Fin 256) :
    Gen.iblk2 V c 3 t (ix2 k j) = V c main_arg9 (ix2 k j) := by
  obtain ⟨e00, e01, e10, e11, e20, e21, e30, e31, e40, e41, e50, e51⟩ := idx_facts t
  show V c main_arg9 (((cfg2.win 3).blk t).view.emb (ix2 k j)) = _
  refine congrArg _ (funext fun a => Fin.ext ?_)
  match a with
  | ⟨0, _⟩ => show win2_3.index t (0 : Fin 2) * 256 + 1 * k.val = k.val; omega
  | ⟨1, _⟩ => show win2_3.index t (1 : Fin 2) * 256 + 1 * j.val = j.val; omega

/-- The bias row is one tile at every point. -/
theorem blk4_apply (V : (c : Dev nD) → (b : Ref sig .tc) → Buf (Elt Ideal) ((c : Thread nD τ).loc b)) (c : Dev nD) (t : Fin cfg2.N) (j : Fin 256) :
    Gen.iblk2 V c 4 t (ix2 (0 : Fin 1) j) = V c main_v52 (ix2 (0 : Fin 1) j) := by
  obtain ⟨e00, e01, e10, e11, e20, e21, e30, e31, e40, e41, e50, e51⟩ := idx_facts t
  show V c main_v52 (((cfg2.win 4).blk t).view.emb (ix2 (0 : Fin 1) j)) = _
  refine congrArg _ (funext fun a => Fin.ext ?_)
  match a with
  | ⟨0, _⟩ => show win2_4.index t (0 : Fin 2) * 1 + 1 * 0 = 0; omega
  | ⟨1, _⟩ => show win2_4.index t (1 : Fin 2) * 256 + 1 * j.val = j.val; omega

/-- A tile's layer before normalisation is the arrays' at the tile's row, when the tile's entries are the arrays':
    the same sums over the 256 contracted coordinates, term by term. -/
theorem preB_eq_pre (x0 x1 : Vec Ideal S2000x256 .f32) (x2 x3 : Vec Ideal S256x256 .f32) (x4 : Vec Ideal S1x256 .f32)
    (A X : Cert.Spec.Mat 50000 256) (Wl Wr : Cert.Spec.Mat 256 256) (b : Cert.Spec.Mat 1 256) (p : Fin 2000) (i : Fin 50000)
    (h0 : ∀ k : Fin 256, x0 (ix2 p k) = A (ix2 i k)) (h1 : ∀ k : Fin 256, x1 (ix2 p k) = X (ix2 i k))
    (h2 : ∀ (k : Fin 256) (j : Fin 256), x2 (ix2 k j) = Wl (ix2 k j))
    (h3 : ∀ (k : Fin 256) (j : Fin 256), x3 (ix2 k j) = Wr (ix2 k j))
    (h4 : ∀ j : Fin 256, x4 (ix2 (0 : Fin 1) j) = b (ix2 (0 : Fin 1) j)) (j : Fin 256) :
    preB x0 x1 x2 x3 x4 p j = Cert.Spec.pre A X Wl Wr (Cert.Spec.unrow b) i j := by
  unfold preB Cert.Spec.pre
  rw [Cert.Spec.unrow_apply]
  simp only [h0, h1, h2, h3, h4]

/-- WHAT POINT `t` WRITES BACK is tile `t` of the normalised layer of the arrays the region finds. -/
theorem flushed_eq (V : (c : Dev nD) → (b : Ref sig .tc) → Buf (Elt Ideal) ((c : Thread nD τ).loc b)) (c : Dev nD) (t : Fin cfg2.N) :
    (Gen.dat2 (F := Ideal) V c).flushed 5 t
      = ((cfg2.win 5).blk t).view.read (Elt Ideal)
          (Cert.Spec.conv (V c main_v51) (V c main_v39) (V c main_arg7) (V c main_arg9) (Cert.Spec.unrow (V c main_v52))) := by
  show (cfg2.win 5).cut (grid2.coords t) ((Gen.dat2 (F := Ideal) V c).after 5 t) = _
  rw [Gen.after2_5, out_eq]
  obtain ⟨e00, e01, e10, e11, e20, e21, e30, e31, e40, e41, e50, e51⟩ := idx_facts t
  refine funext fun (y : S2000x256.Idx) => ?_
  obtain ⟨p, q, rfl⟩ : ∃ (p : Fin 2000) (q : Fin 256), y = ix2 p q := ⟨y 0, y 1, eq_ix2 y⟩
  have hemb : ((cfg2.win 5).blk t).view.emb (ix2 p q) = ix2 (rowOf t p) q := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  show Gen.k2_pay1 (Gen.iblk2 V c 0 t) (Gen.iblk2 V c 1 t) (Gen.iblk2 V c 2 t) (Gen.iblk2 V c 3 t) (Gen.iblk2 V c 4 t) (ix2 p q)
    = Cert.Spec.conv (V c main_v51) (V c main_v39) (V c main_arg7) (V c main_arg9) (Cert.Spec.unrow (V c main_v52))
        (((cfg2.win 5).blk t).view.emb (ix2 p q))
  rw [hemb]
  refine (pay_apply (Gen.iblk2 V c 0 t) (Gen.iblk2 V c 1 t) (Gen.iblk2 V c 2 t) (Gen.iblk2 V c 3 t) (Gen.iblk2 V c 4 t) p q).trans ?_
  have hpre : ∀ j : Fin 256,
      preB (Gen.iblk2 V c 0 t) (Gen.iblk2 V c 1 t) (Gen.iblk2 V c 2 t) (Gen.iblk2 V c 3 t) (Gen.iblk2 V c 4 t) p j
        = Cert.Spec.pre (V c main_v51) (V c main_v39) (V c main_arg7) (V c main_arg9) (Cert.Spec.unrow (V c main_v52)) (rowOf t p) j :=
    preB_eq_pre _ _ _ _ _ (V c main_v51) (V c main_v39) (V c main_arg7) (V c main_arg9) (V c main_v52) p (rowOf t p)
      (blk0_apply V c t p) (blk1_apply V c t p) (blk2_apply V c t) (blk3_apply V c t) (blk4_apply V c t)
  simp only [hpre]
  rfl

/-- An index of the result is in point `t`'s tile iff each coordinate is in the tile's range on its axis. -/
theorem mem_blk (t : Fin cfg2.N) (i : S50000x256.Idx) :
    i ∈ ((cfg2.win 5).blk t).view.set
      ↔ ∀ a : Fin 2, win2_5.index t a * S2000x256.size a ≤ (i a).val ∧ (i a).val < win2_5.index t a * S2000x256.size a + S2000x256.size a := by
  show i ∈ ((View.whole main_v53).slice (win2_5.rect t)).set ↔ _
  rw [View.set_slice_whole, Rect.mem_set_unit]
  exact Iff.rfl

/-- The tiles cover the result: row `r` lies in tile `r / 2000`, and the one tile of the channels holds every channel. -/
theorem cover (i : S50000x256.Idx) :
    ∃ t : Fin cfg2.N, (cfg2.win 5).flush t = true ∧ i ∈ ((cfg2.win 5).blk t).view.set := by
  have hN : grid2.N = 25 := by decide
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by show (i 0).val / 2000 < grid2.N; omega⟩, rfl⟩
  obtain ⟨e00, e01, e10, e11, e20, e21, e30, e31, e40, e41, e50, e51⟩ := idx_facts t
  refine ⟨t, Gen.flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE RESULT the region leaves: the normalised layer of the arrays it finds. -/
theorem final (V : (c : Dev nD) → (b : Ref sig .tc) → Buf (Elt Ideal) ((c : Thread nD τ).loc b)) (c : Dev nD) :
    (Gen.dat2 (F := Ideal) V c).arrAt 5 cfg2.N
      = Cert.Spec.conv (V c main_v51) (V c main_v39) (V c main_arg7) (V c main_arg9) (Cert.Spec.unrow (V c main_v52)) :=
  (Gen.dat2 (F := Ideal) V c).arrAt_eq_of_cover 5 _ (fun t _ => flushed_eq V c t) cover

end Cert.KernelIdeal.Region2

end
-- ==== Proof.RefConv.lean ====
/-
  The reference program's two matrix layers, read index by index, are the specification's layers.

  Each layer is  pre(i,j) = (Σ_k A(i,k)·Wl(k,j) + b(j)) + Σ_k X(i,k)·Wr(k,j)  in the program's order of additions;
  the specification adds the bias last.  The two agree because addition of extended reals is commutative and
  associative.  The row length is the square root of 0 + Σ_j pre(i,j)², floored at the word 1e-12, and the layer is
  pre(i,j) divided by that length; the first layer is followed by max(·, 0).
-/
import proofs.«179194_j5385888989904_1_alg».proof.Proof.Gen.ReferenceIdeal.Read
import proofs.«179194_j5385888989904_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-! ## The first layer (contraction over 128 features) -/

section Layer1

variable (x0 : (⟨S50000x128, .f32⟩ : BufTy).Contents (Elt Ideal))
  (x1 : (⟨S2x800000, .i32⟩ : BufTy).Contents (Elt Ideal))
  (x2 : (⟨S128x256, .f32⟩ : BufTy).Contents (Elt Ideal))
  (x3 : (⟨S256, .f32⟩ : BufTy).Contents (Elt Ideal))
  (x4 : (⟨S128x256, .f32⟩ : BufTy).Contents (Elt Ideal))

/-- The sum of the two products and the bias, in the program's order, is the specification's sum:
    (a + b) + c = (a + c) + b. -/
theorem v28_eq_pre (p : Fin 50000) (j : Fin 256) :
    Read.val_main_v28 (F := Ideal) x0 x1 x2 x3 x4 (ix2 p j)
      = Cert.Spec.pre (Read.val_main_v22 (F := Ideal) x0 x1) x0 x2 x4 x3 p j := by
  rw [val_main_v28_apply, val_main_v26_apply, val_main_v23_apply, val_main_v25_apply, val_main_v24_apply,
    val_main_v27_apply]
  generalize val_main_v22 (F := Ideal) x0 x1 = A
  have el : ∀ k : Fin 128, lidx_main_v23 (ix2 p j) k = ix2 p k := fun k =>
    funext fun a => Fin.ext (by match a with | ⟨0, _⟩ => rfl | ⟨1, _⟩ => rfl)
  have er : ∀ k : Fin 128, ridx_main_v23 (ix2 p j) k = ix2 k j := fun k =>
    funext fun a => Fin.ext (by match a with | ⟨0, _⟩ => rfl | ⟨1, _⟩ => rfl)
  have el' : ∀ k : Fin 128, lidx_main_v27 (ix2 p j) k = ix2 p k := fun k =>
    funext fun a => Fin.ext (by match a with | ⟨0, _⟩ => rfl | ⟨1, _⟩ => rfl)
  have er' : ∀ k : Fin 128, ridx_main_v27 (ix2 p j) k = ix2 k j := fun k =>
    funext fun a => Fin.ext (by match a with | ⟨0, _⟩ => rfl | ⟨1, _⟩ => rfl)
  have eb : idx_main_v24 (idx_main_v25 (ix2 p j)) = ix1 j :=
    funext fun a => Fin.ext (by match a with | ⟨0, _⟩ => rfl)
  simp only [el, er, el', er', eb, Ideal.addf_def]
  unfold Cert.Spec.pre
  exact add_right_comm _ _ _

/-- The square of the layer's entry. -/
theorem sq_v28 (p : Fin 50000) (k : Fin 256) :
    Read.val_main_call0_v0 (F := Ideal) x0 x1 x2 x3 x4 (ix2 p k)
      = Cert.Spec.pre (Read.val_main_v22 (F := Ideal) x0 x1) x0 x2 x4 x3 p k
        * Cert.Spec.pre (Read.val_main_v22 (F := Ideal) x0 x1) x0 x2 x4 x3 p k := by
  rw [val_main_call0_v0_apply, v28_eq_pre, Ideal.mulf_def]

/-- The sum of the squares along a row; the sum starts from the zero word. -/
theorem sumsq_v28 (p : Fin 50000) :
    Read.val_main_call0_v1 (F := Ideal) x0 x1 x2 x3 x4 (ix1 p)
      = ∑ j : Fin 256, Cert.Spec.pre (Read.val_main_v22 (F := Ideal) x0 x1) x0 x2 x4 x3 p j
          * Cert.Spec.pre (Read.val_main_v22 (F := Ideal) x0 x1) x0 x2 x4 x3 p j := by
  rw [val_main_call0_v1_apply, val_main_call0_cst_apply, Ideal.ofBits_def, Ideal.ofBits_zero_f32, zero_add]
  refine Finset.sum_congr rfl fun k _ => ?_
  have ei : idx_main_call0_v1 (ix1 p) k = ix2 p k :=
    funext fun a => Fin.ext (by match a with | ⟨0, _⟩ => rfl | ⟨1, _⟩ => rfl)
  rw [ei, sq_v28]

/-- The row's length: the square root of the sum of squares, floored at the word 1e-12. -/
theorem v31_eq_rowNorm (p : Fin 50000) :
    Read.val_main_v31 (F := Ideal) x0 x1 x2 x3 x4 (ix2 p (0 : Fin 1))
      = Cert.Spec.rowNorm (Read.val_main_v22 (F := Ideal) x0 x1) x0 x2 x4 x3 p := by
  have e2 : idx_main_call0_v2 (ix2 p (0 : Fin 1)) = ix1 p :=
    funext fun a => Fin.ext (by match a with | ⟨0, _⟩ => rfl)
  rw [val_main_v31_apply, val_main_v29_apply, val_main_call0_v2_apply, e2, sumsq_v28, val_main_v30_apply,
    val_main_cst_4_apply, Ideal.maximumf_def, Ideal.hostUnary_sqrt_def, Ideal.ofBits_def,
    Cert.Spec.rowNorm, Cert.Spec.normEps]

/-- The first layer of the reference program is the specification's normalised layer followed by max(·, 0). -/
theorem stage_v34 :
    Read.val_main_v34 (F := Ideal) x0 x1 x2 x3 x4
      = Cert.Spec.convRelu (Read.val_main_v22 (F := Ideal) x0 x1) x0 x2 x4 x3 := by
  funext i
  obtain ⟨p, q, rfl⟩ : ∃ (p : Fin 50000) (q : Fin 256), i = ix2 p q := ⟨i 0, i 1, ValueIdx.eq_ix2 i⟩
  have e32 : idx_main_v32 (ix2 p q) = ix2 p (0 : Fin 1) :=
    funext fun a => Fin.ext (by match a with | ⟨0, _⟩ => rfl | ⟨1, _⟩ => rfl)
  rw [val_main_v34_apply, val_main_v33_apply, val_main_v32_apply, val_main_call1_v0_apply,
    val_main_call1_cst_apply, e32, v31_eq_rowNorm, v28_eq_pre, Cert.Spec.convRelu_apply, Ideal.maximumf_def,
    Ideal.hostDivf_def, Ideal.ofBits_def, Ideal.ofBits_zero_f32, Cert.Spec.convAt]

end Layer1

/-! ## The second layer (contraction over 256 features, no max) -/

section Layer2

variable (x0 : (⟨S50000x128, .f32⟩ : BufTy).Contents (Elt Ideal))
  (x1 : (⟨S2x800000, .i32⟩ : BufTy).Contents (Elt Ideal))
  (x2 : (⟨S128x256, .f32⟩ : BufTy).Contents (Elt Ideal))
  (x3 : (⟨S256, .f32⟩ : BufTy).Contents (Elt Ideal))
  (x4 : (⟨S128x256, .f32⟩ : BufTy).Contents (Elt Ideal))
  (x5 x6 : (⟨S256, .f32⟩ : BufTy).Contents (Elt Ideal))
  (x7 : (⟨S256x256, .f32⟩ : BufTy).Contents (Elt Ideal))
  (x8 : (⟨S256, .f32⟩ : BufTy).Contents (Elt Ideal))
  (x9 : (⟨S256x256, .f32⟩ : BufTy).Contents (Elt Ideal))

/-- The sum of the two products and the bias, in the program's order, is the specification's sum:
    (a + b) + c = (a + c) + b. -/
theorem v84_eq_pre (p : Fin 50000) (j : Fin 256) :
    Read.val_main_v84 (F := Ideal) x0 x1 x2 x3 x4 x5 x6 x7 x8 x9 (ix2 p j)
      = Cert.Spec.pre (Read.val_main_v78 (F := Ideal) x0 x1 x2 x3 x4 x5 x6)
          (Read.val_main_v59 (F := Ideal) x0 x1 x2 x3 x4 x5 x6) x7 x9 x8 p j := by
  rw [val_main_v84_apply, val_main_v82_apply, val_main_v79_apply, val_main_v81_apply, val_main_v80_apply,
    val_main_v83_apply]
  generalize val_main_v78 (F := Ideal) x0 x1 x2 x3 x4 x5 x6 = A
  generalize val_main_v59 (F := Ideal) x0 x1 x2 x3 x4 x5 x6 = X
  have el : ∀ k : Fin 256, lidx_main_v79 (ix2 p j) k = ix2 p k := fun k =>
    funext fun a => Fin.ext (by match a with | ⟨0, _⟩ => rfl | ⟨1, _⟩ => rfl)
  have er : ∀ k : Fin 256, ridx_main_v79 (ix2 p j) k = ix2 k j := fun k =>
    funext fun a => Fin.ext (by match a with | ⟨0, _⟩ => rfl | ⟨1, _⟩ => rfl)
  have el' : ∀ k : Fin 256, lidx_main_v83 (ix2 p j) k = ix2 p k := fun k =>
    funext fun a => Fin.ext (by match a with | ⟨0, _⟩ => rfl | ⟨1, _⟩ => rfl)
  have er' : ∀ k : Fin 256, ridx_main_v83 (ix2 p j) k = ix2 k j := fun k =>
    funext fun a => Fin.ext (by match a with | ⟨0, _⟩ => rfl | ⟨1, _⟩ => rfl)
  have eb : idx_main_v80 (idx_main_v81 (ix2 p j)) = ix1 j :=
    funext fun a => Fin.ext (by match a with | ⟨0, _⟩ => rfl)
  simp only [el, er, el', er', eb, Ideal.addf_def]
  unfold Cert.Spec.pre
  exact add_right_comm _ _ _

/-- The square of the layer's entry. -/
theorem sq_v84 (p : Fin 50000) (k : Fin 256) :
    Read.val_main_call2_v0 (F := Ideal) x0 x1 x2 x3 x4 x5 x6 x7 x8 x9 (ix2 p k)
      = Cert.Spec.pre (Read.val_main_v78 (F := Ideal) x0 x1 x2 x3 x4 x5 x6)
          (Read.val_main_v59 (F := Ideal) x0 x1 x2 x3 x4 x5 x6) x7 x9 x8 p k
        * Cert.Spec.pre (Read.val_main_v78 (F := Ideal) x0 x1 x2 x3 x4 x5 x6)
          (Read.val_main_v59 (F := Ideal) x0 x1 x2 x3 x4 x5 x6) x7 x9 x8 p k := by
  rw [val_main_call2_v0_apply, v84_eq_pre, Ideal.mulf_def]

/-- The sum of the squares along a row; the sum starts from the zero word. -/
theorem sumsq_v84 (p : Fin 50000) :
    Read.val_main_call2_v1 (F := Ideal) x0 x1 x2 x3 x4 x5 x6 x7 x8 x9 (ix1 p)
      = ∑ j : Fin 256, Cert.Spec.pre (Read.val_main_v78 (F := Ideal) x0 x1 x2 x3 x4 x5 x6)
            (Read.val_main_v59 (F := Ideal) x0 x1 x2 x3 x4 x5 x6) x7 x9 x8 p j
          * Cert.Spec.pre (Read.val_main_v78 (F := Ideal) x0 x1 x2 x3 x4 x5 x6)
            (Read.val_main_v59 (F := Ideal) x0 x1 x2 x3 x4 x5 x6) x7 x9 x8 p j := by
  rw [val_main_call2_v1_apply, val_main_call2_cst_apply, Ideal.ofBits_def, Ideal.ofBits_zero_f32, zero_add]
  refine Finset.sum_congr rfl fun k _ => ?_
  have ei : idx_main_call2_v1 (ix1 p) k = ix2 p k :=
    funext fun a => Fin.ext (by match a with | ⟨0, _⟩ => rfl | ⟨1, _⟩ => rfl)
  rw [ei, sq_v84]

/-- The row's length: the square root of the sum of squares, floored at the word 1e-12. -/
theorem v87_eq_rowNorm (p : Fin 50000) :
    Read.val_main_v87 (F := Ideal) x0 x1 x2 x3 x4 x5 x6 x7 x8 x9 (ix2 p (0 : Fin 1))
      = Cert.Spec.rowNorm (Read.val_main_v78 (F := Ideal) x0 x1 x2 x3 x4 x5 x6)
          (Read.val_main_v59 (F := Ideal) x0 x1 x2 x3 x4 x5 x6) x7 x9 x8 p := by
  have e2 : idx_main_call2_v2 (ix2 p (0 : Fin 1)) = ix1 p :=
    funext fun a => Fin.ext (by match a with | ⟨0, _⟩ => rfl)
  rw [val_main_v87_apply, val_main_v85_apply, val_main_call2_v2_apply, e2, sumsq_v84, val_main_v86_apply,
    val_main_cst_16_apply, Ideal.maximumf_def, Ideal.hostUnary_sqrt_def, Ideal.ofBits_def,
    Cert.Spec.rowNorm, Cert.Spec.normEps]

/-- The second layer of the reference program is the specification's normalised layer. -/
theorem stage_v89 :
    Read.val_main_v89 (F := Ideal) x0 x1 x2 x3 x4 x5 x6 x7 x8 x9
      = Cert.Spec.conv (Read.val_main_v78 (F := Ideal) x0 x1 x2 x3 x4 x5 x6)
          (Read.val_main_v59 (F := Ideal) x0 x1 x2 x3 x4 x5 x6) x7 x9 x8 := by
  funext i
  obtain ⟨p, q, rfl⟩ : ∃ (p : Fin 50000) (q : Fin 256), i = ix2 p q := ⟨i 0, i 1, ValueIdx.eq_ix2 i⟩
  have e88 : idx_main_v88 (ix2 p q) = ix2 p (0 : Fin 1) :=
    funext fun a => Fin.ext (by match a with | ⟨0, _⟩ => rfl | ⟨1, _⟩ => rfl)
  rw [val_main_v89_apply, val_main_v88_apply, e88, v87_eq_rowNorm, v84_eq_pre, Cert.Spec.conv_apply,
    Ideal.hostDivf_def, Cert.Spec.convAt]

end Layer2

end Cert.ReferenceIdeal.RefValue

end
-- ==== Proof.RefBn.lean ====
/-
  Batch normalisation as the reference program computes it.

  The reference forms, from the array H and the per-channel mean μ and variance σ², the array
  ((H − μ) · rsqrt(σ² + ε')) · γ + β, each per-channel operand broadcast first to one row and then over all rows.
  Read at (row, channel) every broadcast reads its operand at the channel, so the result is the
  batch normalisation of the specification with those statistics.
-/
import proofs.«179194_j5385888989904_1_alg».proof.Proof.Gen.ReferenceIdeal.Read
import proofs.«179194_j5385888989904_1_alg».proof.Proof.Spec
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The two broadcasts of a per-channel operand, composed, read row `p`, channel `q` at channel `q`:
    the mean under the subtraction. -/
theorem idx_mean (p : Fin 50000) (q : Fin 256) : Read.idx_main_v45 (Read.idx_main_v46 (ix2 p q)) = ix1 q :=
  funext fun a => Fin.ext (by match a with | ⟨0, _⟩ => rfl)

/-- The same for the reciprocal root of the offset variance. -/
theorem idx_scale (p : Fin 50000) (q : Fin 256) : Read.idx_main_v51 (Read.idx_main_v52 (ix2 p q)) = ix1 q :=
  funext fun a => Fin.ext (by match a with | ⟨0, _⟩ => rfl)

/-- The same for γ. -/
theorem idx_gamma (p : Fin 50000) (q : Fin 256) : Read.idx_main_v54 (Read.idx_main_v55 (ix2 p q)) = ix1 q :=
  funext fun a => Fin.ext (by match a with | ⟨0, _⟩ => rfl)

/-- The same for β. -/
theorem idx_beta (p : Fin 50000) (q : Fin 256) : Read.idx_main_v57 (Read.idx_main_v58 (ix2 p q)) = ix1 q :=
  funext fun a => Fin.ext (by match a with | ⟨0, _⟩ => rfl)

/-- The reference's normalised array is the specification's batch normalisation of its layer output with its own
    mean and variance: at (row, channel) the pointwise operations read their operands there and each broadcast reads its
    operand at the channel. -/
theorem stage_v59 (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 x6 : (⟨S256, .f32⟩ : BufTy).Contents (Elt Ideal)) :
    Read.val_main_v59 (F := Ideal) x0 x1 x2 x3 x4 x5 x6
      = Cert.Spec.bn (Read.val_main_v34 (F := Ideal) x0 x1 x2 x3 x4) (Read.val_main_v37 (F := Ideal) x0 x1 x2 x3 x4)
          (Read.val_main_v44 (F := Ideal) x0 x1 x2 x3 x4) x5 x6 := by
  funext i
  obtain ⟨p, q, rfl⟩ : ∃ (p : Fin 50000) (q : Fin 256), i = ix2 p q := ⟨i 0, i 1, eq_ix2 i⟩
  rw [Read.val_main_v59_apply, Read.val_main_v58_apply, Read.val_main_v57_apply, Read.val_main_v56_apply,
    Read.val_main_v55_apply, Read.val_main_v54_apply, Read.val_main_v53_apply, Read.val_main_v52_apply,
    Read.val_main_v51_apply, Read.val_main_v50_apply, Read.val_main_v49_apply, Read.val_main_v48_apply,
    Read.val_main_cst_9_apply, Read.val_main_v47_apply, Read.val_main_v46_apply, Read.val_main_v45_apply,
    idx_mean, idx_scale, idx_gamma, idx_beta, Cert.Spec.bn_apply]
  simp only [Ideal.addf_def, Ideal.mulf_def, Ideal.subf_def, Ideal.hostUnary_rsqrt_def, Ideal.ofBits_def]
  rfl

end Cert.ReferenceIdeal.RefValue

end
-- ==== Proof.lean ====
/-
  The claim: a two-layer neighbourhood-averaging network (two normalised matrix layers around a batch normalisation),
  computed by three pipelined kernels among host gathers and segment sums, against the same network written as one
  line of host operations.  Over the extended reals both programs compute, stage by stage, the same arrays:

  * the neighbour means `A` (gather by source, segment sum by destination, divided by the floored in-degree) are the same
    host operations of the same inputs on both sides;
  * a layer is `pre(i,j) = Σ_k A(i,k)·Wl(k,j) + Σ_k X(i,k)·Wr(k,j) + b(j)` divided by `max(√(Σ_j pre(i,j)²), ε)`: the kernel's
    matrix unit products into a zero accumulator and the host's `dot_general` are the same sums, a change of float format
    is the identity, and the two programs differ only in where the bias is added (associativity and commutativity of +);
    a row of the output depends on that row of the inputs only, so the row-tiled blocks are restrictions of one function;
  * the batch statistics are the same host reductions of equal arrays, and the normalisation is the same pointwise formula.

  The three frames: the kernel program's (at both instances) is the launch over its six segments; the reference's is its
  run with the result dropped.  `preserves` has no conjunct.
-/
import proofs.«179194_j5385888989904_1_alg».proof.Defs
import proofs.«179194_j5385888989904_1_alg».proof.Proof.Gen.Kernel
import proofs.«179194_j5385888989904_1_alg».proof.Proof.Gen.KernelIdeal
import proofs.«179194_j5385888989904_1_alg».proof.Proof.Gen.ReferenceIdeal
import proofs.«179194_j5385888989904_1_alg».proof.Proof.Gen.Pre_finite_inputs
import proofs.«179194_j5385888989904_1_alg».proof.Proof.Gen.ReferenceIdeal.Run
import proofs.«179194_j5385888989904_1_alg».proof.Proof.Gen.ReferenceIdeal.Read
import proofs.«179194_j5385888989904_1_alg».proof.Proof.PatchedKernelFrame
import proofs.«179194_j5385888989904_1_alg».proof.Proof.PatchedKernelIdealFrame
import proofs.«179194_j5385888989904_1_alg».proof.Proof.KernelRun
import proofs.«179194_j5385888989904_1_alg».proof.Proof.Glue
import proofs.«179194_j5385888989904_1_alg».proof.Proof.Region0
import proofs.«179194_j5385888989904_1_alg».proof.Proof.Region1
import proofs.«179194_j5385888989904_1_alg».proof.Proof.Region2
import proofs.«179194_j5385888989904_1_alg».proof.Proof.RefConv
import proofs.«179194_j5385888989904_1_alg».proof.Proof.RefBn
import Idealize.ShloMosaic.Adequacy
import Idealize.ShloMosaic.Init

noncomputable section

namespace Cert.Proof

open Idealize.ShloMosaic Idealize.SL.Sem

/-- The kernel program, word level: the launch over its segments. -/
theorem frame_k : Cert.frame_Kernel := fun m ρ _ => Cert.Kernel.Gen.frame m ρ

/-- The kernel program over the extended reals: the same launch. -/
theorem frame_ki : Cert.frame_KernelIdeal := fun m ρ _ => Cert.KernelIdeal.Gen.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's last stage of the shared arguments. -/
theorem algebraic : Cert.algebraic_KernelIdeal_ReferenceIdeal := by
  intro m ρ m' ρ' _ hagree
  refine ⟨fun c => Cert.ReferenceIdeal.Read.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Glue.result m ρ c Cert.KernelIdeal.Region0.final Cert.KernelIdeal.Region1.final
          Cert.KernelIdeal.Region2.final Cert.ReferenceIdeal.RefValue.stage_v34 Cert.ReferenceIdeal.RefValue.stage_v59
          Cert.ReferenceIdeal.RefValue.stage_v89), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v89_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
